-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.sign_bit.Statement Cert.KernelIdeal.S512x4096 .f32
  ∧ IdealRules.sign_bit.Statement Cert.KernelIdeal.S512x4096 .f32

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_

variable [Facts]

def fn {F : FTy → Type} [FloatOps F] (main_arg0 : FVec F S8192x4096 .f32) (main_arg1 : FVec F S4096x4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  main_v8
-- ==== Kernel.lean ====
abbrev S8192x4096 : Shape := ⟨2, ![8192, 4096]⟩
abbrev S4096x4096 : Shape := ⟨2, ![4096, 4096]⟩
abbrev S512x4096 : Shape := ⟨2, ![512, 4096]⟩
abbrev S2048x512 : Shape := ⟨2, ![2048, 512]⟩
abbrev S512x1024 : Shape := ⟨2, ![512, 1024]⟩
abbrev S2048x1024 : Shape := ⟨2, ![2048, 1024]⟩

abbrev nBuf : Space → Nat
  | .hbm => 5
  | .vmem => 14
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S8192x4096, .bf16⟩
  | .hbm, ⟨3, _⟩ => ⟨S4096x4096, .bf16⟩
  | .hbm, ⟨4, _⟩ => ⟨S8192x4096, .f32⟩
  | .local _ .vmem, ⟨0, _⟩ => ⟨S512x4096, .f32⟩
  | .local _ .vmem, ⟨1, _⟩ => ⟨S512x4096, .f32⟩
  | .local _ .vmem, ⟨2, _⟩ => ⟨S512x4096, .bf16⟩
  | .local _ .vmem, ⟨3, _⟩ => ⟨S512x4096, .bf16⟩
  | .local _ .vmem, ⟨4, _⟩ => ⟨S512x4096, .f32⟩
  | .local _ .vmem, ⟨5, _⟩ => ⟨S512x4096, .f32⟩
  | .local _ .vmem, ⟨6, _⟩ => ⟨S512x4096, .bf16⟩
  | .local _ .vmem, ⟨7, _⟩ => ⟨S512x4096, .bf16⟩
  | .local _ .vmem, ⟨8, _⟩ => ⟨S2048x512, .bf16⟩
  | .local _ .vmem, ⟨9, _⟩ => ⟨S2048x512, .bf16⟩
  | .local _ .vmem, ⟨10, _⟩ => ⟨S512x1024, .bf16⟩
  | .local _ .vmem, ⟨11, _⟩ => ⟨S512x1024, .bf16⟩
  | .local _ .vmem, ⟨12, _⟩ => ⟨S2048x1024, .f32⟩
  | .local _ .vmem, ⟨13, _⟩ => ⟨S2048x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc2_stg0_0 : Ref sig .tc := ⟨.vmem, 8, rfl⟩
abbrev cc2_stg0_1 : Ref sig .tc := ⟨.vmem, 9, rfl⟩
abbrev cc2_stg1_0 : Ref sig .tc := ⟨.vmem, 10, rfl⟩
abbrev cc2_stg1_1 : Ref sig .tc := ⟨.vmem, 11, rfl⟩
abbrev cc2_stg2_0 : Ref sig .tc := ⟨.vmem, 12, rfl⟩
abbrev cc2_stg2_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc2_sem0_0 : DmaSem sig := 8
abbrev cc2_sem0_1 : DmaSem sig := 9
abbrev cc2_sem1_0 : DmaSem sig := 10
abbrev cc2_sem1_1 : DmaSem sig := 11
abbrev cc2_sem2_0 : DmaSem sig := 12
abbrev cc2_sem2_1 : DmaSem sig := 13

abbrev nD : Nat := 1
abbrev τ : Topo := Topo.v7x

variable {F : FTy → Type} [BitOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x4096 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev grid2 : Pipeline.Grid := ⟨3, ![4, 4, 8], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S2048x512 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S512x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S2048x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

class Facts₀ : Prop where
  inb_S512x4096_S512x4096_0_0 : ∀ a, (![0, 0] : Fin 2 → Nat) a + S512x4096.size a ≤ S512x4096.size a
  h_S512x4096 : 0 < S512x4096.numel
  bitsLt_bf16_f32 : FTy.bits .bf16 < FTy.bits .f32
  packedbf16_S512x4096_S512x4096_0_0 : (Rect.unit (s := S512x4096) ![0, 0] S512x4096.size inb_S512x4096_S512x4096_0_0).PackedRows (EltTy.packing .bf16)
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  dot_S2048x512_S512x1024_S2048x1024_1_0_0_1_n_n_wf : DotDims.WF S2048x512 S512x1024 S2048x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S8192x4096.size a
  hwx0_0 : ∀ i : grid0.Coords, EltTy.bits .f32 = 32 ∨ (Rect.block (s := S8192x4096) S512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S8192x4096.size a
  hwx0_1 : ∀ i : grid0.Coords, EltTy.bits .bf16 = 32 ∨ (Rect.block (s := S8192x4096) S512x4096.size (cc0_transform_1 i) (hinb0_1 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x4096.size a ≤ S4096x4096.size a
  hwx1_0 : ∀ i : grid1.Coords, EltTy.bits .f32 = 32 ∨ (Rect.block (s := S4096x4096) S512x4096.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x4096.size a ≤ S4096x4096.size a
  hwx1_1 : ∀ i : grid1.Coords, EltTy.bits .bf16 = 32 ∨ (Rect.block (s := S4096x4096) S512x4096.size (cc1_transform_1 i) (hinb1_1 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x512.size a ≤ S8192x4096.size a
  hwx2_0 : ∀ i : grid2.Coords, EltTy.bits .bf16 = 32 ∨ (Rect.block (s := S8192x4096) S2048x512.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S512x1024.size a ≤ S4096x4096.size a
  hwx2_1 : ∀ i : grid2.Coords, EltTy.bits .bf16 = 32 ∨ (Rect.block (s := S4096x4096) S512x1024.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2048x1024.size a ≤ S8192x4096.size a
  hwx2_2 : ∀ i : grid2.Coords, EltTy.bits .f32 = 32 ∨ (Rect.block (s := S8192x4096) S2048x1024.size (cc2_transform_2 i) (hinb2_2 i)).WholeWords (EltTy.packing .f32)

variable [Facts₀]

def dot_S2048x512_S512x1024_S2048x1024_1_0_0_1_n_n : DotDims S2048x512 S512x1024 S2048x1024 where
  lhsContracting := [1]
  rhsContracting := [0]
  lhsNonContracting := [0]
  rhsNonContracting := [1]
  lhsBatch := []
  rhsBatch := []
  wf := dot_S2048x512_S512x1024_S2048x1024_1_0_0_1_n_n_wf

abbrev win0_0 : Pipeline.Window sig grid0 :=
  Pipeline.Window.ofSpec (Memref.whole main_arg0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x4096.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg1) S512x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S512x4096.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

abbrev win2_0 : Pipeline.Window sig grid2 :=
  Pipeline.Window.ofSpec (Memref.whole main_v0) S2048x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v1) S512x1024.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v2) S2048x1024.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S8192x4096 : Shape := ⟨2, ![8192, 4096]⟩
abbrev S4096x4096 : Shape := ⟨2, ![4096, 4096]⟩

abbrev nBuf : Space → Nat
  | .hbm => 5
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S8192x4096, .f32⟩
  | .hbm, ⟨3, _⟩ => ⟨S4096x4096, .f32⟩
  | .hbm, ⟨4, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]

class Facts₀ : Prop where
  dot_S8192x4096_S4096x4096_S8192x4096_1_0_0_1_n_n_wf : DotDims.WF S8192x4096 S4096x4096 S8192x4096 [1] [0] [0] [1] [] []

variable [Facts₀]

def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf

class Facts : Prop extends Facts₀ where

variable [Facts]
-- ==== Proof.Spec.lean ====
/-
  The mathematics of a sign-binarized matrix product, with no program in sight.

  Both programs compute, for X of extents [8192, 4096] and W of extents [4096, 4096] over the extended reals,
  the matrix whose entry (r, c) is the sum over k < 4096 of sign(X r k) * sign(W k c). The kernel reaches that
  sum in eight consecutive slabs of 512 values of k, starting from zero and adding one slab's partial product at
  a time; the reference takes the sum whole. Addition on the extended reals is commutative and associative, so
  the two groupings of the same 4096 summands agree: no finiteness of the inputs is used.

  Entries are addressed here by natural-number coordinates (`at2`), so that the block arithmetic of the kernel
  (a row of block `b` is `2048 * b + p`, a contraction index of slab `s` is `512 * s + k`) is plain linear arithmetic.
-/
import Idealize.ShloMosaic.PureOps.Ideal
import Idealize.ShloMosaic.Lib.ValueIdx

noncomputable section

open scoped BigOperators

namespace Cert.BinMM

open Idealize.ShloMosaic Idealize.ShloMosaic.ValueIdx

/-- The entry of a matrix at natural coordinates; zero outside the extents (a value never used). -/
def at2 {R C : ℕ} (A : (⟨2, ![R, C]⟩ : Shape).Idx → EReal) (r c : ℕ) : EReal :=
  if h : r < R ∧ c < C then A (ix2 ⟨r, h.1⟩ ⟨c, h.2⟩) else 0

/-- At coordinates inside the extents it is the entry. -/
theorem at2_ix2 {R C : ℕ} (A : (⟨2, ![R, C]⟩ : Shape).Idx → EReal) (a : Fin R) (b : Fin C) :
    at2 A a.val b.val = A (ix2 a b) := by
  unfold at2; rw [dif_pos ⟨a.isLt, b.isLt⟩]

/-- An entry read at an index whose coordinates are known as naturals. -/
theorem eq_at2 {R C : ℕ} (A : (⟨2, ![R, C]⟩ : Shape).Idx → EReal) (j : (⟨2, ![R, C]⟩ : Shape).Idx) (r c : ℕ)
    (h0 : (j 0).val = r) (h1 : (j 1).val = c) : A j = at2 A r c := by
  subst h0 h1
  have e : A j = A (ix2 (j 0) (j 1)) := congrArg A (eq_ix2 j)
  exact e.trans (at2_ix2 A (j 0) (j 1)).symm

/-- A sum over `a * b` consecutive naturals is the sum over `a` consecutive runs of `b`. -/
theorem sum_range_mul {β : Type*} [AddCommMonoid β] (f : ℕ → β) (b : ℕ) :
    ∀ a : ℕ, ∑ k ∈ Finset.range (a * b), f k = ∑ s ∈ Finset.range a, ∑ k ∈ Finset.range b, f (b * s + k)
  | 0 => by simp
  | a + 1 => by
    rw [Nat.add_mul, Nat.one_mul, Finset.sum_range_add, sum_range_mul f b a, Finset.sum_range_succ, Nat.mul_comm a b]

/-- Zero plus eight slabs of 512 summands is the whole sum of 4096 summands. -/
theorem blocked_sum (g : ℕ → EReal) :
    (0 : EReal) + ∑ s ∈ Finset.range 8, ∑ k : Fin 512, g (512 * s + k.val) = ∑ k : Fin 4096, g k.val := by
  rw [zero_add, ← Finset.sum_range g]
  have h := sum_range_mul g 512 8
  rw [show (8 * 512 : ℕ) = 4096 from rfl] at h
  rw [h]
  exact Finset.sum_congr rfl fun s _ => Finset.sum_range (fun k => g (512 * s + k)) |>.symm

/-- The product of A [8192, 4096] and B [4096, 4096] as the kernel groups it: zero, plus, for each of the eight
    slabs of the contraction axis, that slab's 512 products. -/
def mmBlocked (A : (⟨2, ![8192, 4096]⟩ : Shape).Idx → EReal) (B : (⟨2, ![4096, 4096]⟩ : Shape).Idx → EReal) :
    (⟨2, ![8192, 4096]⟩ : Shape).Idx → EReal := fun i =>
  0 + ∑ s ∈ Finset.range 8, ∑ k : Fin 512, at2 A (i 0).val (512 * s + k.val) * at2 B (512 * s + k.val) (i 1).val

/-- The grouped product is the plain one: entry (r, c) is the sum over all k of A r k * B k c. -/
theorem mmBlocked_apply (A : (⟨2, ![8192, 4096]⟩ : Shape).Idx → EReal) (B : (⟨2, ![4096, 4096]⟩ : Shape).Idx → EReal)
    (i : (⟨2, ![8192, 4096]⟩ : Shape).Idx) :
    mmBlocked A B i = ∑ k : Fin 4096, A (ix2 (i 0) k) * B (ix2 k (i 1)) := by
  unfold mmBlocked
  refine (blocked_sum (fun n => at2 A (i 0).val n * at2 B n (i 1).val)).trans ?_
  exact Finset.sum_congr rfl fun k _ => by rw [at2_ix2 A (i 0) k, at2_ix2 B k (i 1)]

/-- The sign of every entry. -/
def signs {s : Shape} (X : s.Idx → EReal) : s.Idx → EReal := fun i => Ideal.sign (X i)

/-- THE RESULT both programs compute: entry (r, c) is the sum over k of sign(X r k) * sign(W k c). -/
def binProd (X : (⟨2, ![8192, 4096]⟩ : Shape).Idx → EReal) (W : (⟨2, ![4096, 4096]⟩ : Shape).Idx → EReal) :
    (⟨2, ![8192, 4096]⟩ : Shape).Idx → EReal := fun i =>
  ∑ k : Fin 4096, Ideal.sign (X (ix2 (i 0) k)) * Ideal.sign (W (ix2 k (i 1)))

/-- The kernel's grouping of the binarized product is the result. -/
theorem mmBlocked_signs (X : (⟨2, ![8192, 4096]⟩ : Shape).Idx → EReal) (W : (⟨2, ![4096, 4096]⟩ : Shape).Idx → EReal) :
    mmBlocked (signs X) (signs W) = binProd X W :=
  funext fun i => mmBlocked_apply (signs X) (signs W) i

end Cert.BinMM

end
-- ==== Proof.RunNamed.lean ====
/-
  The idealized kernel's run with its result array NAMED.

  The program is three regions in a row: the rows of x are binarized block by block into a first intermediate
  array, the rows of the weight into a second, and the third region multiplies the two. Every weakly fair
  execution terminates, and at the end every buffer that outlives the regions holds what the three regions'
  write-backs, folded in order over the launch memory, leave there. The frame claim reads that fact at the two
  argument arrays only; here the same fact is also read at the result array, so that the value of the result
  is available: it is what the third region's write-backs leave, over a memory in which the two intermediate
  arrays hold what the first two regions' write-backs left.
-/
import proofs.«101209_j44607530336600_2_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result array ends holding what
    the fold of the three regions leaves there, and the two argument arrays end as launched. -/
theorem run : θ_run defs (onTc (τ := τ) (main (F := F))) ⟨m, fun _ => 0, ρ⟩ (fun r => ∀ c : Dev nD,
      r.2.mem ((c.tc : Thread nD τ).loc main_v2) = W3 m ρ c (Proc.devRef .tc main_v2)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v2 (by decide)),
       (h c _ (mem_uc main_arg0 (by decide))).trans (W3_main_arg0 m ρ c),
       (h c _ (mem_uc main_arg1 (by decide))).trans (W3_main_arg1 m ρ c)⟩)

/-- The result array after the run is what the third region's write-backs leave of its output window, the region
    entered with the two intermediate arrays as the first two regions left them. -/
theorem result_eq (c : Dev nD) :
    W3 m ρ c (Proc.devRef .tc main_v2) = (dat2 (V2 m ρ) c).arrAt 2 cfg2.N := W3_arr m ρ c 2

/-- The third region finds the first intermediate array as the first region's write-backs left it (the second
    region does not touch it), -/
theorem V2_main_v0 (c : Dev nD) : V2 m ρ c main_v0 = (dat0 (V0 m ρ) c).arrAt 1 cfg0.N :=
  (W2_of_ne m ρ c main_v0 (by decide)).trans (W1_arr m ρ c 1)

/-- and the second as the second region's write-backs left it. -/
theorem V2_main_v1 (c : Dev nD) : V2 m ρ c main_v1 = (dat1 (V1 m ρ) c).arrAt 1 cfg1.N := W2_arr m ρ c 1

/-- The first region finds the first argument as launched, -/
theorem V0_main_arg0 (c : Dev nD) : V0 m ρ c main_arg0 = m ((c : Thread nD τ).loc main_arg0) := rfl

/-- and the second region finds the second argument as launched (the first region does not touch it). -/
theorem V1_main_arg1 (c : Dev nD) : V1 m ρ c main_arg1 = m ((c : Thread nD τ).loc main_arg1) :=
  (W1_of_ne m ρ c main_arg1 (by decide)).trans rfl

end Cert.KernelIdeal.Named

end
-- ==== Proof.BinarizeX.lean ====
/-
  The first region: the rows of x, binarized.

  The region walks the 8192 rows of its input array in sixteen blocks of 512 whole rows. At each block it loads
  the block, takes the sign of every entry (the entry itself where it is zero, otherwise minus one or one by
  the order; the narrowing to sixteen bits is the identity on the extended reals), and writes the block back to
  the same rows of its output array. Every row lies in exactly one block, so after the region the output array
  holds the sign of the input array, entry by entry — for ANY contents of the input array when the region is
  entered.
-/
import proofs.«101209_j44607530336600_2_alg».proof.Proof.Gen.KernelIdeal.Frame
import proofs.«101209_j44607530336600_2_alg».proof.Proof.Spec
import Idealize.ShloMosaic.Lib.Pipeline.Value
import Idealize.ShloMosaic.PureOps.Ideal.Laws

set_option maxRecDepth 16384

noncomputable section

namespace Cert.KernelIdeal.BinX

open Cert.KernelIdeal Cert.KernelIdeal.Gen
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's stored value is the sign of the loaded block, entry by entry. -/
theorem pay_sign (x : Vec Ideal S512x4096 .f32) : k0_pay1 (F := Ideal) x = fun i => Ideal.sign (x i) :=
  funext fun i => Ideal.jnp_sign_eq_sign_f32 (x i)

/-- Both windows sit, at point `t`, on row block `t` and column block 0. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- What point `t` writes back is block `t` of the sign of the input array. -/
theorem flushed_eq (c : Dev nD) (t : Fin cfg0.N) :
    (dat0 V c).flushed 1 t = ((cfg0.win 1).blk t).view.read (Elt Ideal) (Cert.BinMM.signs (V c main_arg0)) := by
  show (cfg0.win 1).cut (grid0.coords t) ((dat0 V c).after 1 t) = _
  rw [after0_1]
  unfold out0_1
  rw [View.canon_unit_zero hz]
  simp only [View.ld_unit_zero (S := S512x4096) hz]
  rw [pay_sign]
  obtain ⟨e0, e1, e2, e3⟩ := idx_facts t
  funext j
  show Ideal.sign (V c main_arg0 (((cfg0.win 0).blk t).view.emb j)) = Ideal.sign (V c main_arg0 (((cfg0.win 1).blk t).view.emb j))
  have h0 : ((cfg0.win 0).blk t).view.emb j = ((cfg0.win 1).blk t).view.emb j := by
    funext a; apply Fin.ext
    match a with
    | ⟨0, _⟩ => show win0_0.index t (0 : Fin 2) * 512 + 1 * (j 0).val = win0_1.index t (0 : Fin 2) * 512 + 1 * (j 0).val; omega
    | ⟨1, _⟩ => show win0_0.index t (1 : Fin 2) * 4096 + 1 * (j 1).val = win0_1.index t (1 : Fin 2) * 4096 + 1 * (j 1).val; omega
  rw [h0]

/-- An index of the output array is in point `t`'s block iff each coordinate is in the block's range. -/
theorem mem_blk (t : Fin cfg0.N) (i : S8192x4096.Idx) :
    i ∈ ((cfg0.win 1).blk t).view.set ↔ ∀ a : Fin 2, win0_1.index t a * S512x4096.size a ≤ (i a).val ∧ (i a).val < win0_1.index t a * S512x4096.size a + S512x4096.size a := by
  show i ∈ ((View.whole main_v0).slice (win0_1.rect t)).set ↔ _
  rw [View.set_slice_whole, Rect.mem_set_unit]
  exact Iff.rfl

/-- Every index of the output array is in the block of the point its row falls in. -/
theorem cover (i : S8192x4096.Idx) : ∃ t : Fin cfg0.N, (cfg0.win 1).flush t = true ∧ i ∈ ((cfg0.win 1).blk t).view.set := by
  have hi0 : (i 0).val < 8192 := (i 0).isLt
  have hi1 : (i 1).val < 4096 := (i 1).isLt
  have hN : cfg0.N = 16 := N_0
  let t : Fin cfg0.N := ⟨(i 0).val / 512, by rw [hN]; omega⟩
  obtain ⟨e0, e1, e2, e3⟩ := idx_facts t
  have ht : t.val = (i 0).val / 512 := rfl
  refine ⟨t, flush0_1 t, ?_⟩
  rw [mem_blk]
  intro a
  match a with
  | ⟨0, _⟩ => show win0_1.index t (0 : Fin 2) * 512 ≤ (i 0).val ∧ (i 0).val < win0_1.index t (0 : Fin 2) * 512 + 512; omega
  | ⟨1, _⟩ => show win0_1.index t (1 : Fin 2) * 4096 ≤ (i 1).val ∧ (i 1).val < win0_1.index t (1 : Fin 2) * 4096 + 4096; omega

/-- After the region its output array holds the sign of its input array as the region found it. -/
theorem final (c : Dev nD) : (dat0 V c).arrAt 1 cfg0.N = Cert.BinMM.signs (V c main_arg0) :=
  (dat0 V c).arrAt_eq_of_cover 1 (Cert.BinMM.signs (V c main_arg0)) (fun t _ => flushed_eq V c t) cover

end Cert.KernelIdeal.BinX

end
-- ==== Proof.BinarizeW.lean ====
/-
  The second region: the rows of the weight, binarized.

  The region walks the 4096 rows of its input array in eight blocks of 512 whole rows. At each block it loads
  the block, takes the sign of every entry (the entry itself where it is zero, otherwise minus one or one by
  the order; the narrowing to sixteen bits is the identity on the extended reals), and writes the block back to
  the same rows of its output array. Every row lies in exactly one block, so after the region the output array
  holds the sign of the input array, entry by entry — for ANY contents of the input array when the region is
  entered.
-/
import proofs.«101209_j44607530336600_2_alg».proof.Proof.Gen.KernelIdeal.Frame
import proofs.«101209_j44607530336600_2_alg».proof.Proof.Spec
import Idealize.ShloMosaic.Lib.Pipeline.Value
import Idealize.ShloMosaic.PureOps.Ideal.Laws

set_option maxRecDepth 16384

noncomputable section

namespace Cert.KernelIdeal.BinW

open Cert.KernelIdeal Cert.KernelIdeal.Gen
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's stored value is the sign of the loaded block, entry by entry. -/
theorem pay_sign (x : Vec Ideal S512x4096 .f32) : k1_pay1 (F := Ideal) x = fun i => Ideal.sign (x i) :=
  funext fun i => Ideal.jnp_sign_eq_sign_f32 (x i)

/-- Both windows sit, at point `t`, on row block `t` and column block 0. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0 :=
  (by decide +kernel : ∀ t : Fin grid1.N, _)

/-- What point `t` writes back is block `t` of the sign of the input array. -/
theorem flushed_eq (c : Dev nD) (t : Fin cfg1.N) :
    (dat1 V c).flushed 1 t = ((cfg1.win 1).blk t).view.read (Elt Ideal) (Cert.BinMM.signs (V c main_arg1)) := by
  show (cfg1.win 1).cut (grid1.coords t) ((dat1 V c).after 1 t) = _
  rw [after1_1]
  unfold out1_1
  rw [View.canon_unit_zero hz]
  simp only [View.ld_unit_zero (S := S512x4096) hz]
  rw [pay_sign]
  obtain ⟨e0, e1, e2, e3⟩ := idx_facts t
  funext j
  show Ideal.sign (V c main_arg1 (((cfg1.win 0).blk t).view.emb j)) = Ideal.sign (V c main_arg1 (((cfg1.win 1).blk t).view.emb j))
  have h0 : ((cfg1.win 0).blk t).view.emb j = ((cfg1.win 1).blk t).view.emb j := by
    funext a; apply Fin.ext
    match a with
    | ⟨0, _⟩ => show win1_0.index t (0 : Fin 2) * 512 + 1 * (j 0).val = win1_1.index t (0 : Fin 2) * 512 + 1 * (j 0).val; omega
    | ⟨1, _⟩ => show win1_0.index t (1 : Fin 2) * 4096 + 1 * (j 1).val = win1_1.index t (1 : Fin 2) * 4096 + 1 * (j 1).val; omega
  rw [h0]

/-- An index of the output array is in point `t`'s block iff each coordinate is in the block's range. -/
theorem mem_blk (t : Fin cfg1.N) (i : S4096x4096.Idx) :
    i ∈ ((cfg1.win 1).blk t).view.set ↔ ∀ a : Fin 2, win1_1.index t a * S512x4096.size a ≤ (i a).val ∧ (i a).val < win1_1.index t a * S512x4096.size a + S512x4096.size a := by
  show i ∈ ((View.whole main_v1).slice (win1_1.rect t)).set ↔ _
  rw [View.set_slice_whole, Rect.mem_set_unit]
  exact Iff.rfl

/-- Every index of the output array is in the block of the point its row falls in. -/
theorem cover (i : S4096x4096.Idx) : ∃ t : Fin cfg1.N, (cfg1.win 1).flush t = true ∧ i ∈ ((cfg1.win 1).blk t).view.set := by
  have hi0 : (i 0).val < 4096 := (i 0).isLt
  have hi1 : (i 1).val < 4096 := (i 1).isLt
  have hN : cfg1.N = 8 := N_1
  let t : Fin cfg1.N := ⟨(i 0).val / 512, by rw [hN]; omega⟩
  obtain ⟨e0, e1, e2, e3⟩ := idx_facts t
  have ht : t.val = (i 0).val / 512 := rfl
  refine ⟨t, flush1_1 t, ?_⟩
  rw [mem_blk]
  intro a
  match a with
  | ⟨0, _⟩ => show win1_1.index t (0 : Fin 2) * 512 ≤ (i 0).val ∧ (i 0).val < win1_1.index t (0 : Fin 2) * 512 + 512; omega
  | ⟨1, _⟩ => show win1_1.index t (1 : Fin 2) * 4096 ≤ (i 1).val ∧ (i 1).val < win1_1.index t (1 : Fin 2) * 4096 + 4096; omega

/-- After the region its output array holds the sign of its input array as the region found it. -/
theorem final (c : Dev nD) : (dat1 V c).arrAt 1 cfg1.N = Cert.BinMM.signs (V c main_arg1) :=
  (dat1 V c).arrAt_eq_of_cover 1 (Cert.BinMM.signs (V c main_arg1)) (fun t _ => flushed_eq V c t) cover

end Cert.KernelIdeal.BinW

end
-- ==== Proof.MatmulPayload.lean ====
/-
  The third region's arithmetic at one entry.

  At a grid point the body holds a [2048, 512] block `a` of the first binarized array, a [512, 1024] block `b`
  of the second, and the [2048, 1024] block `acc` its output buffer holds; it stores `acc + a · b`, the matrix
  product taken into a zero accumulator. On the extended reals the entry (p, q) of what it stores is the entry
  of `acc` there plus the sum over the 512 contraction indices k of a(p, k) * b(k, q): the same-shape casts are
  the identity, the product's operand indices at (p, q) and k are (p, k) and (k, q), and the zero accumulator
  adds nothing. The block the reset stores first is zero at every entry.
-/
import proofs.«101209_j44607530336600_2_alg».proof.Proof.Gen.KernelIdeal.Skeleton
import Idealize.ShloMosaic.Lib.Pipeline.Value
import Idealize.ShloMosaic.Lib.ValueIdx
import Idealize.ShloMosaic.PureOps.Ideal.Laws

noncomputable section

open scoped BigOperators

namespace Cert.KernelIdeal.MMPay

open Cert.KernelIdeal Cert.KernelIdeal.Gen
open Idealize.ShloMosaic Idealize.ShloMosaic.ValueIdx

/-- The product's left operand index at output entry `j` keeps `j`'s row, -/
theorem lhs_row (j : S2048x1024.Idx) (u : dot_S2048x512_S512x1024_S2048x1024_1_0_0_1_n_n.contr.Idx) :
    (dot_S2048x512_S512x1024_S2048x1024_1_0_0_1_n_n.lhsIdx j u 0).val = (j 0).val := by
  unfold DotDims.lhsIdx
  rw [dif_neg (show ¬(0 : Fin S2048x512.rank) ∈ dot_S2048x512_S512x1024_S2048x1024_1_0_0_1_n_n.lhsBatch by decide),
    dif_pos (show (0 : Fin S2048x512.rank) ∈ dot_S2048x512_S512x1024_S2048x1024_1_0_0_1_n_n.lhsNonContracting by decide)]
  rfl
/-- and its column is the contraction coordinate; -/
theorem lhs_col (j : S2048x1024.Idx) (u : dot_S2048x512_S512x1024_S2048x1024_1_0_0_1_n_n.contr.Idx) :
    (dot_S2048x512_S512x1024_S2048x1024_1_0_0_1_n_n.lhsIdx j u 1).val = (u ⟨0, by decide⟩).val :=
  dot_S2048x512_S512x1024_S2048x1024_1_0_0_1_n_n.lhsIdx_val_of_single rfl j u
/-- the right operand's row is the contraction coordinate, -/
theorem rhs_row (j : S2048x1024.Idx) (u : dot_S2048x512_S512x1024_S2048x1024_1_0_0_1_n_n.contr.Idx) :
    (dot_S2048x512_S512x1024_S2048x1024_1_0_0_1_n_n.rhsIdx j u 0).val = (u ⟨0, by decide⟩).val :=
  dot_S2048x512_S512x1024_S2048x1024_1_0_0_1_n_n.rhsIdx_val_of_single rfl j u
/-- and its column is `j`'s. -/
theorem rhs_col (j : S2048x1024.Idx) (u : dot_S2048x512_S512x1024_S2048x1024_1_0_0_1_n_n.contr.Idx) :
    (dot_S2048x512_S512x1024_S2048x1024_1_0_0_1_n_n.rhsIdx j u 1).val = (j 1).val := by
  unfold DotDims.rhsIdx
  rw [dif_neg (show ¬(1 : Fin S512x1024.rank) ∈ dot_S2048x512_S512x1024_S2048x1024_1_0_0_1_n_n.rhsBatch by decide),
    dif_pos (show (1 : Fin S512x1024.rank) ∈ dot_S2048x512_S512x1024_S2048x1024_1_0_0_1_n_n.rhsNonContracting by decide)]
  rfl

/-- The block product into a zero accumulator, at entry (p, q): the sum over k of a(p, k) * b(k, q). -/
theorem prod_apply (a : FVec Ideal S2048x512 .bf16) (b : FVec Ideal S512x1024 .bf16) (p : Fin 2048) (q : Fin 1024) :
    matmul dot_S2048x512_S512x1024_S2048x1024_1_0_0_1_n_n none a b (constant (F := Ideal) S2048x1024 .f32 0x00000000#32) (ix2 p q)
      = ∑ k : Fin 512, a (ix2 p k) * b (ix2 k q) := by
  simp only [matmul]
  rw [Ideal.matmul_constant_zero_apply,
    ← Equiv.sum_comp (contrEquiv1 dot_S2048x512_S512x1024_S2048x1024_1_0_0_1_n_n 512 rfl rfl).symm]
  refine Finset.sum_congr rfl fun k _ => ?_
  have hk := contrEquiv1_symm_val dot_S2048x512_S512x1024_S2048x1024_1_0_0_1_n_n 512 rfl rfl k
  have el : dot_S2048x512_S512x1024_S2048x1024_1_0_0_1_n_n.lhsIdx (ix2 p q)
      ((contrEquiv1 dot_S2048x512_S512x1024_S2048x1024_1_0_0_1_n_n 512 rfl rfl).symm k) = ix2 p k :=
    funext fun d => Fin.ext (by
      match d with
      | ⟨0, _⟩ => exact lhs_row _ _
      | ⟨1, _⟩ => exact (lhs_col _ _).trans hk)
  have er : dot_S2048x512_S512x1024_S2048x1024_1_0_0_1_n_n.rhsIdx (ix2 p q)
      ((contrEquiv1 dot_S2048x512_S512x1024_S2048x1024_1_0_0_1_n_n 512 rfl rfl).symm k) = ix2 k q :=
    funext fun d => Fin.ext (by
      match d with
      | ⟨0, _⟩ => exact (rhs_row _ _).trans hk
      | ⟨1, _⟩ => exact rhs_col _ _)
  rw [el, er]

/-- What a point stores, at entry (p, q): the buffer's entry plus the block product's. -/
theorem step_apply (acc : FVec Ideal S2048x1024 .f32) (a : FVec Ideal S2048x512 .bf16) (b : FVec Ideal S512x1024 .bf16)
    (p : Fin 2048) (q : Fin 1024) :
    k2_pay2 (F := Ideal) acc a b (ix2 p q) = acc (ix2 p q) + ∑ k : Fin 512, a (ix2 p k) * b (ix2 k q) := by
  unfold k2_pay2
  simp only [shapeCast_self]
  exact congrArg (acc (ix2 p q) + ·) (prod_apply a b p q)

/-- The block the reset stores is zero at every entry. -/
theorem reset_apply (j : S2048x1024.Idx) : k2_pay1 (F := Ideal) j = 0 := by
  show Ideal.ofBits .f32 0x00000000#32 = 0
  exact Ideal.ofBits_zero_f32

end Cert.KernelIdeal.MMPay

end
-- ==== Proof.MatmulCases.lean ====
/-
  The third region's two kinds of grid point, as values of the block its output buffer holds afterwards.

  A point whose third grid coordinate is zero first stores the zero block into the output buffer, reads it back,
  and stores the zero block plus the product of its two input blocks. Every other point reads what the point
  before left in the buffer and stores that plus the product of its two input blocks. In both cases the last
  store covers the whole buffer, so what the buffer holds afterwards is that store's value; the loads read whole
  buffers at zero offsets, so they read the blocks themselves. Both facts hold for any float instance.
-/
import proofs.«101209_j44607530336600_2_alg».proof.Proof.Gen.KernelIdeal.Frame
import Idealize.ShloMosaic.Lib.Pipeline.Value
import Idealize.ShloMosaic.Lib.Tactic

set_option maxRecDepth 16384

noncomputable section

namespace Cert.KernelIdeal.MMCases

open Cert.KernelIdeal Cert.KernelIdeal.Gen
open Idealize.ShloMosaic Idealize.ShloMosaic.TcCoe Idealize.ShloMosaic.Tactic Idealize.SL.Sem
open Idealize.ShloMosaic.Pipeline (Dat)

variable {F : FTy → Type} [FloatOps F]

theorem hz : (![0, 0] : Fin 2 → Nat) = fun _ => 0 := funext fun a => by fin_cases a <;> rfl

/-- A point that continues a run leaves, in the output buffer that held `xo`, `xo` plus the product of its input
    blocks: its one store covers the buffer and its three loads read whole buffers. -/
theorem continue_eq (c : Dev nD) (i : grid2.Coords) (a3 : Memref sig .tc .vmem S2048x512 .bf16) (h3 : a3.IsWhole)
    (a4 : Memref sig .tc .vmem S512x1024 .bf16) (h4 : a4.IsWhole) (a5 : Memref sig .tc .vmem S2048x1024 .f32) (h5 : a5.IsWhole)
    (hc : ¬cond2_0 i) (x0 : Vec F S2048x512 .bf16) (x1 : Vec F S512x1024 .bf16) (xo : Vec F S2048x1024 .f32) :
    out2_B_2 c i a3 h3 a4 h4 a5 h5 hc x0 x1 xo = k2_pay2 xo x0 x1 := by
  unfold out2_B_2
  rw [View.read_writes_eq_canon _ _ _ (cover2_B_2 c i a3 h3 a4 h4 a5 h5 hc x0 x1 xo)]
  unfold kernelRun2_B
  dsimp only
  rw [View.canon_unit_zero hz]
  simp only [View.readAt_eq_ld, h3.read_unread, h4.read_unread, h5.read_unread, View.ld_unit_zero (S := S2048x1024) hz,
    View.ld_unit_zero (S := S2048x512) hz, View.ld_unit_zero (S := S512x1024) hz]

/-- A point that starts a run leaves the zero block plus the product of its input blocks: the zero block it stores
    first is what its next load of the buffer reads back. -/
theorem start_eq (c : Dev nD) (i : grid2.Coords) (a3 : Memref sig .tc .vmem S2048x512 .bf16) (h3 : a3.IsWhole)
    (a4 : Memref sig .tc .vmem S512x1024 .bf16) (h4 : a4.IsWhole) (a5 : Memref sig .tc .vmem S2048x1024 .f32) (h5 : a5.IsWhole)
    (hc : cond2_0 i) (x0 : Vec F S2048x512 .bf16) (x1 : Vec F S512x1024 .bf16) :
    out2_A_2 c i a3 h3 a4 h4 a5 h5 hc x0 x1 = k2_pay2 (k2_pay1 (F := F)) x0 x1 := by
  unfold out2_A_2
  rw [View.read_writes_eq_canon _ _ _ (cover2_A_2 c i a3 h3 a4 h4 a5 h5 hc x0 x1)]
  unfold kernelRun2_A
  dsimp only
  sl_unfold_words
  rw [View.canon_cons_unit_zero (S := S2048x1024) hz, View.readCov_unit_zero (S := S2048x1024) _ hz]
  simp only [View.readAt_eq_ld, h3.read_unread, h4.read_unread, View.ld_unit_zero (S := S2048x1024) hz,
    View.ld_unit_zero (S := S2048x512) hz, View.ld_unit_zero (S := S512x1024) hz]

end Cert.KernelIdeal.MMCases

end
-- ==== Proof.MatmulFold.lean ====
/-
  The third region's output buffer after each grid point, entry by entry.

  The grid has 128 points; point n works on row block n / 32 (2048 rows) and column block (n / 8) % 4 (1024
  columns) of the result, and on slab n % 8 (512 values) of the contraction axis. The eight points 8u … 8u + 7
  of a run share their row and column block and walk the eight slabs in order: the first resets the buffer to
  zero and adds its slab's products, each later one adds its slab's products to what the point before left.
  So after point n the buffer's entry (p, q) is zero plus the slabs' partial products of the points
  8 (n / 8) … n, each a sum of 512 products of entries of the two arrays the region reads. The proof is an
  induction along one run, never an enumeration of the grid.
-/
import proofs.«101209_j44607530336600_2_alg».proof.Proof.Gen.KernelIdeal.Frame
import proofs.«101209_j44607530336600_2_alg».proof.Proof.Spec
import proofs.«101209_j44607530336600_2_alg».proof.Proof.MatmulPayload
import proofs.«101209_j44607530336600_2_alg».proof.Proof.MatmulCases
import Idealize.ShloMosaic.Lib.Pipeline.Value

set_option maxRecDepth 16384

noncomputable section

open scoped BigOperators

namespace Cert.KernelIdeal.MMFold

open Cert.KernelIdeal Cert.KernelIdeal.Gen Cert.BinMM
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- Where the three windows sit at point `t`: the left operand on row block t / 32 and slab t % 8, the right operand
    on slab t % 8 and column block (t / 8) % 4, the output on row block t / 32 and column block (t / 8) % 4. -/
theorem idx_facts : ∀ t : Fin cfg2.N, win2_0.index t (0 : Fin 2) = t.val / 32 ∧ win2_0.index t (1 : Fin 2) = t.val % 8
    ∧ win2_1.index t (0 : Fin 2) = t.val % 8 ∧ win2_1.index t (1 : Fin 2) = t.val / 8 % 4
    ∧ win2_2.index t (0 : Fin 2) = t.val / 32 ∧ win2_2.index t (1 : Fin 2) = t.val / 8 % 4 :=
  (by decide +kernel : ∀ t : Fin grid2.N, _)

/-- The left operand's block at point `t`, at (p, k): the array's entry in row 2048 (t / 32) + p, column 512 (t % 8) + k. -/
theorem left_apply (c : Dev nD) (t : Fin cfg2.N) (p : Fin 2048) (k : Fin 512) :
    (iblk2 V c 0 t : Vec Ideal S2048x512 .bf16) (ix2 p k)
      = at2 (V c main_v0) (2048 * (t.val / 32) + p.val) (512 * (t.val % 8) + k.val) := by
  obtain ⟨e0, e1, -, -, -, -⟩ := idx_facts t
  unfold iblk2
  rw [View.read_apply]
  show V c main_v0 (((cfg2.win 0).blk t).view.emb (ix2 p k)) = _
  refine eq_at2 (V c main_v0) _ _ _ ?_ ?_
  · show win2_0.index t (0 : Fin 2) * 2048 + 1 * p.val = _; omega
  · show win2_0.index t (1 : Fin 2) * 512 + 1 * k.val = _; omega

/-- The right operand's block at point `t`, at (k, q): the array's entry in row 512 (t % 8) + k, column 1024 ((t / 8) % 4) + q. -/
theorem right_apply (c : Dev nD) (t : Fin cfg2.N) (k : Fin 512) (q : Fin 1024) :
    (iblk2 V c 1 t : Vec Ideal S512x1024 .bf16) (ix2 k q)
      = at2 (V c main_v1) (512 * (t.val % 8) + k.val) (1024 * (t.val / 8 % 4) + q.val) := by
  obtain ⟨-, -, e2, e3, -, -⟩ := idx_facts t
  unfold iblk2
  rw [View.read_apply]
  show V c main_v1 (((cfg2.win 1).blk t).view.emb (ix2 k q)) = _
  refine eq_at2 (V c main_v1) _ _ _ ?_ ?_
  · show win2_1.index t (0 : Fin 2) * 512 + 1 * k.val = _; omega
  · show win2_1.index t (1 : Fin 2) * 1024 + 1 * q.val = _; omega

/-- Point `n`'s addend at entry (p, q) of its output block: its slab's 512 products. -/
def slab (c : Dev nD) (n : ℕ) (p q : ℕ) : EReal :=
  ∑ k : Fin 512, at2 (V c main_v0) (2048 * (n / 32) + p) (512 * (n % 8) + k.val)
    * at2 (V c main_v1) (512 * (n % 8) + k.val) (1024 * (n / 8 % 4) + q)

/-- The product of two blocks at (p, q) is point `n`'s addend, when the blocks' entries in row p and in column q are
    the arrays' entries of point `n`'s slab. -/
theorem blocks_slab (c : Dev nD) (n : ℕ) (a : FVec Ideal S2048x512 .bf16) (b : FVec Ideal S512x1024 .bf16)
    (p : Fin 2048) (q : Fin 1024)
    (ha : ∀ k : Fin 512, a (ix2 p k) = at2 (V c main_v0) (2048 * (n / 32) + p.val) (512 * (n % 8) + k.val))
    (hb : ∀ k : Fin 512, b (ix2 k q) = at2 (V c main_v1) (512 * (n % 8) + k.val) (1024 * (n / 8 % 4) + q.val)) :
    (∑ k : Fin 512, a (ix2 p k) * b (ix2 k q)) = slab V c n p.val q.val :=
  Finset.sum_congr rfl fun k _ => by rw [ha k, hb k]

/-- After a point that starts a run, entry (p, q) of the buffer is zero plus the point's addend. -/
theorem entry_start (c : Dev nD) (t : Fin cfg2.N) (h0 : t.val % 8 = 0) (p : Fin 2048) (q : Fin 1024) :
    outsAt2 V c t.val t.isLt (ix2 p q) = 0 + slab V c t.val p.val q.val := by
  rw [outsAt2_A V c t h0, MMCases.start_eq]
  refine (MMPay.step_apply (k2_pay1 (F := Ideal)) (iblk2 V c 0 t) (iblk2 V c 1 t) p q).trans ?_
  rw [MMPay.reset_apply]
  exact congrArg (0 + ·) (blocks_slab V c t.val (iblk2 V c 0 t) (iblk2 V c 1 t) p q
    (fun k => left_apply V c t p k) (fun k => right_apply V c t k q))

/-- After a point that continues a run, entry (p, q) is what the point before left there plus the point's addend. -/
theorem entry_continue (c : Dev nD) (t : Fin cfg2.N) (h0 : ¬t.val % 8 = 0) (p : Fin 2048) (q : Fin 1024) :
    outsAt2 V c t.val t.isLt (ix2 p q)
      = outsAt2 V c (t.val - 1) (Nat.lt_of_le_of_lt (Nat.sub_le _ _) t.isLt) (ix2 p q) + slab V c t.val p.val q.val := by
  rw [outsAt2_B V c t h0, MMCases.continue_eq]
  refine (MMPay.step_apply (outsAt2 V c (t.val - 1) (Nat.lt_of_le_of_lt (Nat.sub_le _ _) t.isLt)) (iblk2 V c 0 t) (iblk2 V c 1 t) p q).trans ?_
  exact congrArg (outsAt2 V c (t.val - 1) (Nat.lt_of_le_of_lt (Nat.sub_le _ _) t.isLt) (ix2 p q) + ·)
    (blocks_slab V c t.val (iblk2 V c 0 t) (iblk2 V c 1 t) p q
      (fun k => left_apply V c t p k) (fun k => right_apply V c t k q))

/-- ALONG A RUN: from a point `b` that starts a run, after its `j`-th successor (j < 8) entry (p, q) of the buffer
    is zero plus the addends of the points b … b + j. -/
theorem entry_run (c : Dev nD) (b : ℕ) (hb : b % 8 = 0) (p : Fin 2048) (q : Fin 1024) :
    ∀ (j : ℕ) (_ : j < 8) (h : b + j < cfg2.N),
      outsAt2 V c (b + j) h (ix2 p q) = 0 + ∑ s ∈ Finset.range (j + 1), slab V c (b + s) p.val q.val
  | 0, _, h => by
    rw [Finset.sum_range_one]
    exact entry_start V c ⟨b + 0, h⟩ (by show (b + 0) % 8 = 0; omega) p q
  | j + 1, hj, h => by
    have hne : ¬(⟨b + (j + 1), h⟩ : Fin cfg2.N).val % 8 = 0 := by show ¬(b + (j + 1)) % 8 = 0; omega
    have same : ∀ (u : ℕ) (hu : u < cfg2.N) (hv : b + j < cfg2.N), u = b + j →
        outsAt2 V c u hu = outsAt2 V c (b + j) hv := fun u hu hv e => by subst e; rfl
    refine (entry_continue V c ⟨b + (j + 1), h⟩ hne p q).trans ?_
    rw [same _ _ (Nat.lt_of_succ_lt h) (by show b + (j + 1) - 1 = b + j; omega),
      entry_run c b hb p q j (Nat.lt_of_succ_lt hj) (Nat.lt_of_succ_lt h), Finset.sum_range_succ _ (j + 1), add_assoc]

/-- AT THE END OF A RUN (a point t with t % 8 = 7): entry (p, q) is zero plus the eight addends of the run. -/
theorem entry_last (c : Dev nD) (t : Fin cfg2.N) (h7 : t.val % 8 = 7) (p : Fin 2048) (q : Fin 1024) :
    outsAt2 V c t.val t.isLt (ix2 p q) = 0 + ∑ s ∈ Finset.range 8, slab V c (8 * (t.val / 8) + s) p.val q.val := by
  have ht : 8 * (t.val / 8) + 7 = t.val := by omega
  have same : ∀ (u : ℕ) (hu : u < cfg2.N), u = t.val → outsAt2 V c u hu = outsAt2 V c t.val t.isLt :=
    fun u hu e => by subst e; rfl
  rw [← same (8 * (t.val / 8) + 7) (by rw [ht]; exact t.isLt) ht]
  exact entry_run V c (8 * (t.val / 8)) (by omega) p q 7 (by omega) _

end Cert.KernelIdeal.MMFold

end
-- ==== Proof.MatmulFinal.lean ====
/-
  The third region's output array after the region.

  The output block is written back only at the last point of each run (the points t with t % 8 = 7), when it
  holds zero plus the run's eight slabs of products. Point t's block covers rows 2048 (t / 32) … and columns
  1024 ((t / 8) % 4) … of the result, so entry (p, q) of the block is entry (2048 (t / 32) + p,
  1024 ((t / 8) % 4) + q) of the blocked product of the two arrays the region reads, and the addend of the run's
  s-th point there is exactly the s-th slab of that entry's sum. The sixteen runs' blocks tile the result, so the
  array ends holding the blocked product — for ANY contents of the two arrays when the region is entered.
-/
import proofs.«101209_j44607530336600_2_alg».proof.Proof.Gen.KernelIdeal.Frame
import proofs.«101209_j44607530336600_2_alg».proof.Proof.Spec
import proofs.«101209_j44607530336600_2_alg».proof.Proof.MatmulFold
import Idealize.ShloMosaic.Lib.Pipeline.Value

set_option maxRecDepth 16384

noncomputable section

open scoped BigOperators

namespace Cert.KernelIdeal.MMFinal

open Cert.KernelIdeal Cert.KernelIdeal.Gen Cert.BinMM
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- At the end of a run, entry (p, q) of the buffer is the blocked product's entry at the result index `i` that the
    block places it at: the run's s-th addend is the s-th slab of that entry's sum. -/
theorem block_entry (c : Dev nD) (t : Fin cfg2.N) (h7 : t.val % 8 = 7) (p : Fin 2048) (q : Fin 1024) (i : S8192x4096.Idx)
    (h0 : (i 0).val = 2048 * (t.val / 32) + p.val) (h1 : (i 1).val = 1024 * (t.val / 8 % 4) + q.val) :
    outsAt2 V c t.val t.isLt (ix2 p q) = mmBlocked (V c main_v0) (V c main_v1) i := by
  rw [MMFold.entry_last V c t h7 p q]
  unfold mmBlocked
  show _ = 0 + ∑ s ∈ Finset.range 8, ∑ k : Fin 512, at2 (V c main_v0) (i 0).val (512 * s + k.val) * at2 (V c main_v1) (512 * s + k.val) (i 1).val
  rw [h0, h1]
  refine congrArg (0 + ·) (Finset.sum_congr rfl fun s hs => ?_)
  have hs8 : s < 8 := Finset.mem_range.mp hs
  unfold MMFold.slab
  refine Finset.sum_congr rfl fun k _ => ?_
  rw [show (8 * (t.val / 8) + s) / 32 = t.val / 32 by omega, show (8 * (t.val / 8) + s) % 8 = s by omega,
    show (8 * (t.val / 8) + s) / 8 % 4 = t.val / 8 % 4 by omega]

/-- What a point at the end of a run writes back is its block of the blocked product. -/
theorem flushed_eq (c : Dev nD) (t : Fin cfg2.N) (hf : (cfg2.win 2).flush t = true) :
    (dat2 V c).flushed 2 t = ((cfg2.win 2).blk t).view.read (Elt Ideal) (mmBlocked (V c main_v0) (V c main_v1)) := by
  have h7 : t.val % 8 = 7 := (flush2_2 t).mp hf
  obtain ⟨-, -, -, -, e4, e5⟩ := MMFold.idx_facts t
  show (cfg2.win 2).cut (grid2.coords t) ((dat2 V c).after 2 t) = _
  rw [after2_2]
  funext y
  have hy : y = ix2 (y 0) (y 1) := @eq_ix2 2048 1024 y
  show outsAt2 V c t.val t.isLt y = mmBlocked (V c main_v0) (V c main_v1) (((cfg2.win 2).blk t).view.emb y)
  rw [hy]
  refine block_entry V c t h7 (y 0) (y 1) _ ?_ ?_
  · show win2_2.index t (0 : Fin 2) * 2048 + 1 * (y 0).val = _; omega
  · show win2_2.index t (1 : Fin 2) * 1024 + 1 * (y 1).val = _; omega

/-- An index of the result is in point `t`'s block iff each coordinate is in the block's range. -/
theorem mem_blk (t : Fin cfg2.N) (i : S8192x4096.Idx) :
    i ∈ ((cfg2.win 2).blk t).view.set ↔ ∀ a : Fin 2, win2_2.index t a * S2048x1024.size a ≤ (i a).val ∧ (i a).val < win2_2.index t a * S2048x1024.size a + S2048x1024.size a := by
  show i ∈ ((View.whole main_v2).slice (win2_2.rect t)).set ↔ _
  rw [View.set_slice_whole, Rect.mem_set_unit]
  exact Iff.rfl

/-- Every index of the result is in the block written back at the end of the run of its row and column block. -/
theorem cover (i : S8192x4096.Idx) : ∃ t : Fin cfg2.N, (cfg2.win 2).flush t = true ∧ i ∈ ((cfg2.win 2).blk t).view.set := by
  have hi0 : (i 0).val < 8192 := (i 0).isLt
  have hi1 : (i 1).val < 4096 := (i 1).isLt
  have hN : cfg2.N = 128 := N_2
  let t : Fin cfg2.N := ⟨32 * ((i 0).val / 2048) + 8 * ((i 1).val / 1024) + 7, by rw [hN]; omega⟩
  obtain ⟨-, -, -, -, e4, e5⟩ := MMFold.idx_facts t
  have ht : t.val = 32 * ((i 0).val / 2048) + 8 * ((i 1).val / 1024) + 7 := rfl
  refine ⟨t, (flush2_2 t).mpr (by omega), ?_⟩
  rw [mem_blk]
  intro a
  match a with
  | ⟨0, _⟩ => show win2_2.index t (0 : Fin 2) * 2048 ≤ (i 0).val ∧ (i 0).val < win2_2.index t (0 : Fin 2) * 2048 + 2048; omega
  | ⟨1, _⟩ => show win2_2.index t (1 : Fin 2) * 1024 ≤ (i 1).val ∧ (i 1).val < win2_2.index t (1 : Fin 2) * 1024 + 1024; omega

/-- After the region its output array holds the blocked product of the two arrays it read, as the region found them. -/
theorem final (c : Dev nD) : (dat2 V c).arrAt 2 cfg2.N = mmBlocked (V c main_v0) (V c main_v1) :=
  (dat2 V c).arrAt_eq_of_cover 2 (mmBlocked (V c main_v0) (V c main_v1)) (fun t hf => flushed_eq V c t hf) cover

end Cert.KernelIdeal.MMFinal

end
-- ==== Proof.RefValue.lean ====
/-
  The reference computes the result function.

  The reference takes the sign of every entry of x and of the weight on the host and multiplies the two matrices
  in one product. On the extended reals the host's sign is the sign by the order (zero at zero, minus one below,
  one above, the infinities included), and the host's product at entry (r, c) is the sum over the 4096
  contraction indices k of left(r, k) * right(k, c). So its result is, entry by entry, the sum over k of
  sign(x r k) * sign(w k c).
-/
import proofs.«101209_j44607530336600_2_alg».proof.Proof.Gen.ReferenceIdeal.Read
import proofs.«101209_j44607530336600_2_alg».proof.Proof.Spec
import Idealize.ShloMosaic.Lib.ValueIdx
import Idealize.ShloMosaic.PureOps.Ideal.Laws

noncomputable section

open scoped BigOperators

namespace Cert.ReferenceIdeal.RefValue

open Cert.ReferenceIdeal Cert.BinMM
open Idealize.ShloMosaic Idealize.ShloMosaic.ValueIdx

/-- The reference's result, as a function of its two arguments, is the binarized product. -/
theorem result_eq (x : (⟨S8192x4096, .f32⟩ : BufTy).Contents (Elt Ideal)) (w : (⟨S4096x4096, .f32⟩ : BufTy).Contents (Elt Ideal)) :
    Read.val_main_v2 (F := Ideal) x w = binProd x w := by
  funext i
  rw [Read.val_main_v2_apply]
  show _ = ∑ k : Fin 4096, Ideal.sign (x (ix2 (i 0) k)) * Ideal.sign (w (ix2 k (i 1)))
  refine Finset.sum_congr rfl fun k _ => ?_
  have el : Read.lidx_main_v2 i k = ix2 (i 0) k :=
    funext fun a => Fin.ext (by match a with | ⟨0, _⟩ => rfl | ⟨1, _⟩ => rfl)
  have er : Read.ridx_main_v2 i k = ix2 k (i 1) :=
    funext fun a => Fin.ext (by match a with | ⟨0, _⟩ => rfl | ⟨1, _⟩ => rfl)
  rw [Read.val_main_v0_apply, Read.val_main_v1_apply, el, er]
  rfl

end Cert.ReferenceIdeal.RefValue

end
-- ==== Proof.lean ====
/-
  A binary linear layer: out = sign(x) · sign(weight), for x of extents [8192, 4096] and weight [4096, 4096].

  The kernel works in three regions. The first two walk the rows of x and of the weight in blocks of 512 rows and
  write each entry's sign (zero at zero, otherwise minus one or one by the order) into two intermediate arrays.
  The third multiplies the intermediate arrays block by block: its grid point (r, c, s) adds, into the
  [2048, 1024] block (r, c) of the result, the product of the [2048, 512] block (r, s) of the first array and the
  [512, 1024] block (s, c) of the second; the block is reset to zero at s = 0 and written back after s = 7.
  The reference takes both signs on the host and multiplies the two matrices in one product.

  On the extended reals both results are, at entry (r, c), the sum over the 4096 contraction indices k of
  sign(x r k) * sign(weight k c): the reference's as one sum, the kernel's as zero plus eight consecutive slabs
  of 512 summands. Addition there is commutative and associative, so the two groupings agree and the finiteness
  of the inputs is not used. The narrowing of the signs to sixteen bits is the identity on the extended reals.

  Modules: Spec (the two groupings of the sum), BinarizeX and BinarizeW (the first two regions' output arrays),
  MatmulPayload, MatmulCases, MatmulFold and MatmulFinal (the third region's output array), RunNamed (the run of
  the three regions with the result array named), RefValue (the reference's result). The three frame claims are
  the generated frames and the reference's generated run; the two idealization conjuncts are the sign-bit rule's
  statement at the two binarizing regions.
-/
import proofs.«101209_j44607530336600_2_alg».proof.Defs
import proofs.«101209_j44607530336600_2_alg».proof.Proof.Gen.Kernel
import proofs.«101209_j44607530336600_2_alg».proof.Proof.Gen.Kernel.Skeleton
import proofs.«101209_j44607530336600_2_alg».proof.Proof.Gen.Kernel.Launch
import proofs.«101209_j44607530336600_2_alg».proof.Proof.Gen.Kernel.Points
import proofs.«101209_j44607530336600_2_alg».proof.Proof.Gen.Kernel.Frame
import proofs.«101209_j44607530336600_2_alg».proof.Proof.Gen.KernelIdeal
import proofs.«101209_j44607530336600_2_alg».proof.Proof.Gen.KernelIdeal.Skeleton
import proofs.«101209_j44607530336600_2_alg».proof.Proof.Gen.KernelIdeal.Launch
import proofs.«101209_j44607530336600_2_alg».proof.Proof.Gen.KernelIdeal.Points
import proofs.«101209_j44607530336600_2_alg».proof.Proof.Gen.KernelIdeal.Frame
import proofs.«101209_j44607530336600_2_alg».proof.Proof.Gen.ReferenceIdeal
import proofs.«101209_j44607530336600_2_alg».proof.Proof.Gen.Pre_finite_inputs
import proofs.«101209_j44607530336600_2_alg».proof.Proof.Gen.ReferenceIdeal.Run
import proofs.«101209_j44607530336600_2_alg».proof.Proof.Gen.ReferenceIdeal.Read
import proofs.«101209_j44607530336600_2_alg».proof.Proof.Spec
import proofs.«101209_j44607530336600_2_alg».proof.Proof.RunNamed
import proofs.«101209_j44607530336600_2_alg».proof.Proof.BinarizeX
import proofs.«101209_j44607530336600_2_alg».proof.Proof.BinarizeW
import proofs.«101209_j44607530336600_2_alg».proof.Proof.MatmulFinal
import proofs.«101209_j44607530336600_2_alg».proof.Proof.RefValue
import Idealize.ShloMosaic.Adequacy
import Idealize.ShloMosaic.Init

noncomputable section

namespace Cert.Proof

open Idealize.ShloMosaic Idealize.ShloMosaic.TcCoe Idealize.SL.Sem Cert.BinMM

/-! ## The kernel's result array -/

section KernelValue

open Cert.KernelIdeal Cert.KernelIdeal.Gen

variable (m : (ℓ : Loc nD τ sig) → Buf (Elt Ideal) ℓ) (ρ : Dev nD → PrngReg)

/-- The third region finds the first intermediate array at the sign of x as launched, -/
theorem left_signs (c : Dev nD) : V2 m ρ c main_v0 = signs (m ((c : Thread nD τ).loc main_arg0)) :=
  (Cert.KernelIdeal.Named.V2_main_v0 m ρ c).trans
    ((Cert.KernelIdeal.BinX.final (V0 m ρ) c).trans (congrArg signs (Cert.KernelIdeal.Named.V0_main_arg0 m ρ c)))

/-- and the second at the sign of the weight as launched. -/
theorem right_signs (c : Dev nD) : V2 m ρ c main_v1 = signs (m ((c : Thread nD τ).loc main_arg1)) :=
  (Cert.KernelIdeal.Named.V2_main_v1 m ρ c).trans
    ((Cert.KernelIdeal.BinW.final (V1 m ρ) c).trans (congrArg signs (Cert.KernelIdeal.Named.V1_main_arg1 m ρ c)))

/-- So the result array ends at the binarized product of the two arguments as launched: the third region leaves the
    blocked product of what it found, and the blocked product of the signs is the plain one. -/
theorem kernel_value (c : Dev nD) :
    W3 m ρ c (Proc.devRef .tc main_v2)
      = binProd (m ((c : Thread nD τ).loc main_arg0)) (m ((c : Thread nD τ).loc main_arg1)) := by
  refine (Cert.KernelIdeal.Named.result_eq m ρ c).trans ?_
  refine (Cert.KernelIdeal.MMFinal.final (V2 m ρ) c).trans ?_
  rw [left_signs m ρ c, right_signs m ρ c]
  exact mmBlocked_signs _ _

end KernelValue

/-! ## The claims -/

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The two rewritten sites are the two binarizing regions' reads of the sign bit: "one carrying the sign bit of
    v" is minus one where v is below zero and one elsewhere. -/
theorem preserves : Cert.preserves_Kernel_KernelIdeal :=
  ⟨IdealRules.sign_bit.statement Cert.KernelIdeal.S512x4096 .f32, IdealRules.sign_bit.statement Cert.KernelIdeal.S512x4096 .f32⟩

/-- Both programs, run from memories that agree on x and the weight, end with the binarized product of them. -/
theorem algebraic : Cert.algebraic_KernelIdeal_ReferenceIdeal := by
  intro m ρ m' ρ' _ hagree
  refine ⟨fun c => binProd (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · exact (θ_run Cert.KernelIdeal.defs _ _).mono (fun _ h c => ⟨(h c).1.trans (kernel_value m ρ c), (h c).2⟩)
      (Cert.KernelIdeal.Named.run (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v2_eq, Cert.ReferenceIdeal.RefValue.result_eq, (hagree c).1, (hagree c).2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
